-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S640000x256 : Shape := ⟨2, ![640000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x256, .f32⟩
  | .hbm, ⟨48, _⟩ => ⟨S_, .f32⟩
  | .hbm, ⟨49, _⟩ => ⟨S50000x256, .f32⟩
  | .hbm, ⟨50, _⟩ => ⟨S640000x1, .i32⟩
  | .hbm, ⟨51, _⟩ => ⟨S50000x256, .f32⟩
  | .hbm, ⟨52, _⟩ => ⟨S_, .f32⟩
  | .hbm, ⟨53, _⟩ => ⟨S640000, .f32⟩
  | .hbm, ⟨54, _⟩ => ⟨S_, .f32⟩
  | .hbm, ⟨55, _⟩ => ⟨S50000, .f32⟩
  | .hbm, ⟨56, _⟩ => ⟨S640000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x256_S2000x256_1_0_0_1_n_n_wf : DotDims.WF S2000x128 S128x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S50000x256, .f32⟩
  | .hbm, ⟨57, _⟩ => ⟨S640000x1, .i32⟩
  | .hbm, ⟨58, _⟩ => ⟨S50000x256, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S50000, .f32⟩
  | .hbm, ⟨63, _⟩ => ⟨S640000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SageRun.lean ====
/-
  The kernel program's run, with its result array named.

  The program is four segments: the host operations that form the first neighbourhood mean, the first kernel over its
  25 row blocks, the host operations that form the second mean from the first kernel's output, and the second kernel.
  Every weakly fair execution runs the four in order and ends with every buffer at the contents the segments leave one
  after another. Read at the eight argument arrays this is the frame (they end as launched); read at the result buffer
  it says the result is what the second kernel's write-backs leave in its output array, from the contents the second
  stretch of host operations left.
-/
import proofs.«141523_j55499567399320_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last segment's contents
    and the arguments as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.SageSpec.lean ====
/-
  One dense step of a GraphSAGE layer, entry by entry, on the extended reals.

  For a neighbourhood-mean array `a` and a feature array `x` (both `N × Ci`), weights `wl`, `wr` (`Ci × Co`) and a
  bias `β` (one entry per output column), the entry in row `r`, column `q` of the step is

      (∑ₖ a[r,k]·wl[k,q]  +  ∑ₖ x[r,k]·wr[k,q])  +  β q.

  Two programs that both compute this may add the three terms in different orders: one adds the two products first
  and the bias last, the other adds the bias to the first product and the second product last. On the extended reals
  addition is commutative and associative (also at the infinities), so the two orders agree, with no
  finiteness assumption: `add_bias_last`.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Row `r`, column `q` of `a·wl + x·wr + β`: the two products summed over the shared axis, then the bias. -/
def denseAt (N Ci Co : Nat) (a x : (⟨2, ![N, Ci]⟩ : Shape).Idx → EReal) (wl wr : (⟨2, ![Ci, Co]⟩ : Shape).Idx → EReal)
    (β : Fin Co → EReal) (r : Fin N) (q : Fin Co) : EReal :=
  (∑ k : Fin Ci, a (ix2 r k) * wl (ix2 k q) + ∑ k : Fin Ci, x (ix2 r k) * wr (ix2 k q)) + β q

/-- The whole array of the step. -/
def dense (N Ci Co : Nat) (a x : (⟨2, ![N, Ci]⟩ : Shape).Idx → EReal) (wl wr : (⟨2, ![Ci, Co]⟩ : Shape).Idx → EReal)
    (β : Fin Co → EReal) : (⟨2, ![N, Co]⟩ : Shape).Idx → EReal :=
  fun i => denseAt N Ci Co a x wl wr β (i 0) (i 1)

/-- The step followed by the rectifier `max · 0`. -/
def denseRelu (N Ci Co : Nat) (a x : (⟨2, ![N, Ci]⟩ : Shape).Idx → EReal) (wl wr : (⟨2, ![Ci, Co]⟩ : Shape).Idx → EReal)
    (β : Fin Co → EReal) : (⟨2, ![N, Co]⟩ : Shape).Idx → EReal :=
  fun i => max (denseAt N Ci Co a x wl wr β (i 0) (i 1)) 0

/-- An entry of the step computed from a block of rows is the entry of the step on the whole arrays, when the block's
    row `p` is the arrays' row `r` and the weights and the bias are the same along the output column. -/
theorem denseAt_block (N n Ci Co : Nat) (A X : (⟨2, ![N, Ci]⟩ : Shape).Idx → EReal) (a x : (⟨2, ![n, Ci]⟩ : Shape).Idx → EReal)
    (Wl Wr wl wr : (⟨2, ![Ci, Co]⟩ : Shape).Idx → EReal) (β β' : Fin Co → EReal) (r : Fin N) (p : Fin n) (q q' : Fin Co)
    (ha : ∀ k, a (ix2 p k) = A (ix2 r k)) (hx : ∀ k, x (ix2 p k) = X (ix2 r k))
    (hwl : ∀ k, wl (ix2 k q) = Wl (ix2 k q')) (hwr : ∀ k, wr (ix2 k q) = Wr (ix2 k q')) (hβ : β q = β' q') :
    denseAt n Ci Co a x wl wr β p q = denseAt N Ci Co A X Wl Wr β' r q' := by
  unfold denseAt
  rw [hβ, Finset.sum_congr rfl fun k _ => congrArg₂ (· * ·) (ha k) (hwl k),
    Finset.sum_congr rfl fun k _ => congrArg₂ (· * ·) (hx k) (hwr k)]

/-- Adding the bias between the two products or after them is the same sum. -/
theorem add_bias_last (s t b : EReal) : (s + b) + t = (s + t) + b := add_right_comm s b t

end Cert.Sage

end
-- ==== Proof.SageBlock0.lean ====
/-
  What one grid point of the first kernel stores, entry by entry.

  The body loads a 2000-row block of the neighbourhood means, the same rows of the features, the two weight matrices
  and the bias row; rounds the four matrices to bf16 (the identity on the extended reals); forms the two products on
  the matrix unit, each into a zero accumulator; adds them; adds the bias row broadcast down the rows; and takes the
  maximum with zero. So row `p`, column `q` of the stored block is the maximum with zero of

      (∑ₖ a[p,k]·wl[k,q] + ∑ₖ x[p,k]·wr[k,q]) + b[0,q],

  which is `Cert.Sage.denseAt` of the loaded blocks at `(p, q)`, rectified. Each matrix-unit product is a sum over the one contracted
  axis of the products of the left operand's row entry and the right operand's column entry.
-/
import proofs.«141523_j55499567399320_1_alg».proof.Proof.Gen.KernelIdeal.Skeleton
import proofs.«141523_j55499567399320_1_alg».proof.Proof.SageSpec
import Idealize.ShloMosaic.Lib.Pipeline.Value
import Idealize.ShloMosaic.Lib.ValueLayout

noncomputable section

namespace Cert.Sage.Block0

open Cert.KernelIdeal Cert.KernelIdeal.Gen Idealize.ShloMosaic Idealize.ShloMosaic.ValueIdx Cert.Sage

/-- The product's left operand is read in the output's row. -/
theorem lhs_row (i : S2000x256.Idx) (c : dot_S2000x128_S128x256_S2000x256_1_0_0_1_n_n.contr.Idx) : (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- The product's right operand is read in the output's column. -/
theorem rhs_col (i : S2000x256.Idx) (c : dot_S2000x128_S128x256_S2000x256_1_0_0_1_n_n.contr.Idx) : (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The left operand's index of the matrix-unit product at output `(p, q)` and contraction index `k` is `(p, k)`. -/
theorem lhs_at (p : Fin 2000) (q : Fin 256) (k : Fin 128) :
    dot_S2000x128_S128x256_S2000x256_1_0_0_1_n_n.lhsIdx (ix2 p q) ((contrEquiv1 dot_S2000x128_S128x256_S2000x256_1_0_0_1_n_n 128 rfl rfl).symm k) = ix2 p k := by
  have hk := contrEquiv1_symm_val dot_S2000x128_S128x256_S2000x256_1_0_0_1_n_n 128 rfl rfl k
  refine funext fun a => Fin.ext ?_
  match a with
  | ⟨0, _⟩ => exact lhs_row _ _
  | ⟨1, _⟩ => exact (dot_S2000x128_S128x256_S2000x256_1_0_0_1_n_n.lhsIdx_val_of_single rfl _ _).trans hk

/-- The right operand's index there is `(k, q)`. -/
theorem rhs_at (p : Fin 2000) (q : Fin 256) (k : Fin 128) :
    dot_S2000x128_S128x256_S2000x256_1_0_0_1_n_n.rhsIdx (ix2 p q) ((contrEquiv1 dot_S2000x128_S128x256_S2000x256_1_0_0_1_n_n 128 rfl rfl).symm k) = ix2 k q := by
  have hk := contrEquiv1_symm_val dot_S2000x128_S128x256_S2000x256_1_0_0_1_n_n 128 rfl rfl k
  refine funext fun a => Fin.ext ?_
  match a with
  | ⟨0, _⟩ => exact (dot_S2000x128_S128x256_S2000x256_1_0_0_1_n_n.rhsIdx_val_of_single rfl _ _).trans hk
  | ⟨1, _⟩ => exact rhs_col _ _

/-- A matrix-unit product of a block by the weights into a zero accumulator, at `(p, q)`: the sum over the shared axis. -/
theorem matmul_at (l : FVec Ideal S2000x128 .bf16) (r : FVec Ideal S128x256 .bf16) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  rw [lhs_at, rhs_at]

/-- The stored block at `(p, q)`. -/
theorem pay_at (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = max (denseAt 2000 128 256 x0 x1 x2 x3 (fun c => x4 (ix2 (0 : Fin 1) c)) p q) 0 := by
  unfold k0_pay1 denseAt
  refine (maximumf_apply _ _ _).trans ?_
  refine congrArg₂ max ?_ Ideal.ofBits_zero_f32
  refine (addf_apply _ _ _).trans ?_
  refine congrArg₂ (· + ·) ?_ (broadcastTo_1b_ab_apply _ _ p q |>.trans (by rw [shapeCast_self]))
  refine (addf_apply _ _ _).trans ?_
  refine congrArg₂ (· + ·) ((matmul_at _ _ p q).trans ?_) ((matmul_at _ _ p q).trans ?_)
  · simp only [shapeCast_self]; rfl
  · rfl

end Cert.Sage.Block0

end
-- ==== Proof.SageArray0.lean ====
/-
  The first kernel's output array, from the contents its region is entered with.

  The grid has 25 points; point `t` loads rows `2000·t … 2000·t + 1999` of the mean array and of the feature array, the
  whole of both weight matrices and of the bias row, and writes back rows `2000·t … 2000·t + 1999` of the output. Row `p`
  of point `t`'s block is row `2000·t + p` of the arrays, so what the point writes back is that block of ONE function of
  the entry contents: the rectified dense step of the mean array, the feature array, the weights and the bias row. The 25 blocks
  tile the 50000 rows (row `r` lies in block `r / 2000`), so the output array ends holding that function.
-/
import proofs.«141523_j55499567399320_1_alg».proof.Proof.Gen.KernelIdeal.Frame
import proofs.«141523_j55499567399320_1_alg».proof.Proof.SageBlock0

set_option maxRecDepth 16384

noncomputable section

namespace Cert.Sage.Array0

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row-blocked inputs and the output sit at block `t` of the rows, the weights
    and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The rectified dense step of the arrays the region is entered with. -/
def target (c : Dev nD) : S50000x256.Idx → EReal :=
  denseRelu 50000 128 256 (V c main_v22 : S50000x128.Idx → Elt Ideal .f32) (V c main_arg0 : S50000x128.Idx → Elt Ideal .f32)
    (V c main_arg2 : S128x256.Idx → Elt Ideal .f32) (V c main_arg4 : S128x256.Idx → Elt Ideal .f32)
    (fun q => (V c main_v23 : S1x256.Idx → Elt Ideal .f32) (ix2 (0 : Fin 1) q))

/-- Row `p` of point `t`'s block of the mean array is the array's row `2000·t + p`. -/
theorem mean_rows (c : Dev nD) (t : Fin cfg0.N) (p : Fin 2000) (k : Fin 128) (r : Fin 50000) (hr : r.val = t.val * 2000 + p.val) :
    iblk0 V c 0 t (ix2 p k) = (V c main_v22 : S50000x128.Idx → Elt Ideal .f32) (ix2 r k) := by
  obtain ⟨e00, e01, -⟩ := idx_facts t
  show (V c main_v22 : S50000x128.Idx → Elt Ideal .f32) (((cfg0.win 0).blk t).view.emb (ix2 p k)) = _
  refine congrArg (V c main_v22 : S50000x128.Idx → Elt Ideal .f32) (funext fun a => Fin.ext ?_)
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- The same for the feature array. -/
theorem feat_rows (c : Dev nD) (t : Fin cfg0.N) (p : Fin 2000) (k : Fin 128) (r : Fin 50000) (hr : r.val = t.val * 2000 + p.val) :
    iblk0 V c 1 t (ix2 p k) = (V c main_arg0 : S50000x128.Idx → Elt Ideal .f32) (ix2 r k) := by
  obtain ⟨-, -, e10, e11, -⟩ := idx_facts t
  show (V c main_arg0 : S50000x128.Idx → Elt Ideal .f32) (((cfg0.win 1).blk t).view.emb (ix2 p k)) = _
  refine congrArg (V c main_arg0 : S50000x128.Idx → Elt Ideal .f32) (funext fun a => Fin.ext ?_)
  match a with
  | ⟨0, _⟩ => show win0_1.index t (0 : Fin 2) * 2000 + 1 * p.val = r.val; rw [e10, hr]; omega
  | ⟨1, _⟩ => show win0_1.index t (1 : Fin 2) * 128 + 1 * k.val = k.val; rw [e11]; omega

/-- Every point loads the whole of the left weights. -/
theorem wl_whole (c : Dev nD) (t : Fin cfg0.N) (k : Fin 128) (q : Fin 256) :
    iblk0 V c 2 t (ix2 k q) = (V c main_arg2 : S128x256.Idx → Elt Ideal .f32) (ix2 k q) := by
  obtain ⟨-, -, -, -, e20, e21, -⟩ := idx_facts t
  show (V c main_arg2 : S128x256.Idx → Elt Ideal .f32) (((cfg0.win 2).blk t).view.emb (ix2 k q)) = _
  refine congrArg (V c main_arg2 : S128x256.Idx → Elt Ideal .f32) (funext fun a => Fin.ext ?_)
  match a with
  | ⟨0, _⟩ => show win0_2.index t (0 : Fin 2) * 128 + 1 * k.val = k.val; rw [e20]; omega
  | ⟨1, _⟩ => show win0_2.index t (1 : Fin 2) * 256 + 1 * q.val = q.val; rw [e21]; omega

/-- And the whole of the right weights. -/
theorem wr_whole (c : Dev nD) (t : Fin cfg0.N) (k : Fin 128) (q : Fin 256) :
    iblk0 V c 3 t (ix2 k q) = (V c main_arg4 : S128x256.Idx → Elt Ideal .f32) (ix2 k q) := by
  obtain ⟨-, -, -, -, -, -, e30, e31, -⟩ := idx_facts t
  show (V c main_arg4 : S128x256.Idx → Elt Ideal .f32) (((cfg0.win 3).blk t).view.emb (ix2 k q)) = _
  refine congrArg (V c main_arg4 : S128x256.Idx → Elt Ideal .f32) (funext fun a => Fin.ext ?_)
  match a with
  | ⟨0, _⟩ => show win0_3.index t (0 : Fin 2) * 128 + 1 * k.val = k.val; rw [e30]; omega
  | ⟨1, _⟩ => show win0_3.index t (1 : Fin 2) * 256 + 1 * q.val = q.val; rw [e31]; omega

/-- And the whole bias row. -/
theorem bias_whole (c : Dev nD) (t : Fin cfg0.N) (q : Fin 256) :
    iblk0 V c 4 t (ix2 (0 : Fin 1) q) = (V c main_v23 : S1x256.Idx → Elt Ideal .f32) (ix2 (0 : Fin 1) q) := by
  obtain ⟨-, -, -, -, -, -, -, -, e40, e41, -⟩ := idx_facts t
  show (V c main_v23 : S1x256.Idx → Elt Ideal .f32) (((cfg0.win 4).blk t).view.emb (ix2 (0 : Fin 1) q)) = _
  refine congrArg (V c main_v23 : S1x256.Idx → Elt Ideal .f32) (funext fun a => Fin.ext ?_)
  match a with
  | ⟨0, _⟩ => show win0_4.index t (0 : Fin 2) * 1 + 1 * 0 = 0; rw [e40]
  | ⟨1, _⟩ => show win0_4.index t (1 : Fin 2) * 256 + 1 * q.val = q.val; rw [e41]; omega

/-- What point `t` writes back is block `t` of `target`. -/
theorem flushed_eq (c : Dev nD) (t : Fin cfg0.N) :
    (dat0 V c).flushed 5 t = ((cfg0.win 5).blk t).view.read (Elt Ideal) (target V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨-, -, -, -, -, -, -, -, -, -, e50, e51⟩ := idx_facts t
  have hN : cfg0.N = 25 := N_0
  have ht := t.isLt
  funext j
  obtain ⟨p, q, rfl⟩ : ∃ (p : Fin 2000) (q : Fin 256), j = ix2 p q := ⟨j 0, j 1, eq_ix2 j⟩
  refine (Block0.pay_at _ _ _ _ _ p q).trans ?_
  have hp := p.isLt
  have hemb : ((cfg0.win 5).blk t).view.emb (ix2 p q) = ix2 (⟨t.val * 2000 + p.val, by omega⟩ : Fin 50000) q := by
    refine funext fun a => Fin.ext ?_
    match a with
    | ⟨0, _⟩ => show win0_5.index t (0 : Fin 2) * 2000 + 1 * p.val = t.val * 2000 + p.val; rw [e50]; omega
    | ⟨1, _⟩ => show win0_5.index t (1 : Fin 2) * 256 + 1 * q.val = q.val; rw [e51]; omega
  show _ = target V c (((cfg0.win 5).blk t).view.emb (ix2 p q))
  rw [hemb]
  unfold target denseRelu
  refine congrArg (max · 0) ?_
  exact denseAt_block 50000 2000 128 256 _ _ _ _ _ _ _ _ _ _ _ p q q
    (fun k => mean_rows V c t p k _ rfl) (fun k => feat_rows V c t p k _ rfl)
    (fun k => wl_whole V c t k q) (fun k => wr_whole V c t k q) (bias_whole V c t q)

/-- An index of the output is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- The output array after the region: `target`, the 25 blocks tiling the rows. -/
theorem final (c : Dev nD) : (dat0 V c).arrAt 5 cfg0.N = target V c :=
  (dat0 V c).arrAt_eq_of_cover 5 (target V c) (fun t _ => flushed_eq V c t) fun i => by
    have hN : cfg0.N = 25 := N_0
    have hi0 : (i 0).val < 50000 := (i 0).isLt
    have hi1 : (i 1).val < 256 := (i 1).isLt
    refine ⟨⟨(i 0).val / 2000, by omega⟩, flush0_5 _, ?_⟩
    rw [mem_blk]
    obtain ⟨-, -, -, -, -, -, -, -, -, -, e50, e51⟩ := idx_facts ⟨(i 0).val / 2000, by omega⟩
    intro a
    match a with
    | ⟨0, _⟩ =>
      show win0_5.index ⟨(i 0).val / 2000, _⟩ (0 : Fin 2) * 2000 ≤ (i 0).val ∧ (i 0).val < win0_5.index ⟨(i 0).val / 2000, _⟩ (0 : Fin 2) * 2000 + 2000
      rw [e50]; show (i 0).val / 2000 * 2000 ≤ (i 0).val ∧ (i 0).val < (i 0).val / 2000 * 2000 + 2000; omega
    | ⟨1, _⟩ =>
      show win0_5.index ⟨(i 0).val / 2000, _⟩ (1 : Fin 2) * 256 ≤ (i 1).val ∧ (i 1).val < win0_5.index ⟨(i 0).val / 2000, _⟩ (1 : Fin 2) * 256 + 256
      rw [e51]; omega

end Cert.Sage.Array0

end
-- ==== Proof.SageBlock1.lean ====
/-
  What one grid point of the second kernel stores, entry by entry.

  The body loads a 2000-row block of the neighbourhood means, the same rows of the features, the two weight matrices
  and the bias row; rounds the four matrices to bf16 (the identity on the extended reals); forms the two products on
  the matrix unit, each into a zero accumulator; adds them; adds the bias row broadcast down the rows. So row `p`, column `q` of the stored block is

      (∑ₖ a[p,k]·wl[k,q] + ∑ₖ x[p,k]·wr[k,q]) + b[0,q],

  which is `Cert.Sage.denseAt` of the loaded blocks at `(p, q)`. Each matrix-unit product is a sum over the one contracted
  axis of the products of the left operand's row entry and the right operand's column entry.
-/
import proofs.«141523_j55499567399320_1_alg».proof.Proof.Gen.KernelIdeal.Skeleton
import proofs.«141523_j55499567399320_1_alg».proof.Proof.SageSpec
import Idealize.ShloMosaic.Lib.Pipeline.Value
import Idealize.ShloMosaic.Lib.ValueLayout

noncomputable section

namespace Cert.Sage.Block1

open Cert.KernelIdeal Cert.KernelIdeal.Gen Idealize.ShloMosaic Idealize.ShloMosaic.ValueIdx Cert.Sage

/-- The product's left operand is read in the output's row. -/
theorem lhs_row (i : S2000x128.Idx) (c : dot_S2000x256_S256x128_S2000x128_1_0_0_1_n_n.contr.Idx) : (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- The product's right operand is read in the output's column. -/
theorem rhs_col (i : S2000x128.Idx) (c : dot_S2000x256_S256x128_S2000x128_1_0_0_1_n_n.contr.Idx) : (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The left operand's index of the matrix-unit product at output `(p, q)` and contraction index `k` is `(p, k)`. -/
theorem lhs_at (p : Fin 2000) (q : Fin 128) (k : Fin 256) :
    dot_S2000x256_S256x128_S2000x128_1_0_0_1_n_n.lhsIdx (ix2 p q) ((contrEquiv1 dot_S2000x256_S256x128_S2000x128_1_0_0_1_n_n 256 rfl rfl).symm k) = ix2 p k := by
  have hk := contrEquiv1_symm_val dot_S2000x256_S256x128_S2000x128_1_0_0_1_n_n 256 rfl rfl k
  refine funext fun a => Fin.ext ?_
  match a with
  | ⟨0, _⟩ => exact lhs_row _ _
  | ⟨1, _⟩ => exact (dot_S2000x256_S256x128_S2000x128_1_0_0_1_n_n.lhsIdx_val_of_single rfl _ _).trans hk

/-- The right operand's index there is `(k, q)`. -/
theorem rhs_at (p : Fin 2000) (q : Fin 128) (k : Fin 256) :
    dot_S2000x256_S256x128_S2000x128_1_0_0_1_n_n.rhsIdx (ix2 p q) ((contrEquiv1 dot_S2000x256_S256x128_S2000x128_1_0_0_1_n_n 256 rfl rfl).symm k) = ix2 k q := by
  have hk := contrEquiv1_symm_val dot_S2000x256_S256x128_S2000x128_1_0_0_1_n_n 256 rfl rfl k
  refine funext fun a => Fin.ext ?_
  match a with
  | ⟨0, _⟩ => exact (dot_S2000x256_S256x128_S2000x128_1_0_0_1_n_n.rhsIdx_val_of_single rfl _ _).trans hk
  | ⟨1, _⟩ => exact rhs_col _ _

/-- A matrix-unit product of a block by the weights into a zero accumulator, at `(p, q)`: the sum over the shared axis. -/
theorem matmul_at (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  rw [lhs_at, rhs_at]

/-- The stored block at `(p, q)`. -/
theorem pay_at (x0 x1 : Vec Ideal S2000x256 .f32) (x2 x3 : Vec Ideal S256x128 .f32) (x4 : Vec Ideal S1x128 .f32)
    (p : Fin 2000) (q : Fin 128) :
    k1_pay1 (F := Ideal) x0 x1 x2 x3 x4 (ix2 p q)
      = denseAt 2000 256 128 x0 x1 x2 x3 (fun c => x4 (ix2 (0 : Fin 1) c)) p q := by
  unfold k1_pay1 denseAt
  refine (addf_apply _ _ _).trans ?_
  refine congrArg₂ (· + ·) ?_ (broadcastTo_1b_ab_apply _ _ p q |>.trans (by rw [shapeCast_self]))
  refine (addf_apply _ _ _).trans ?_
  refine congrArg₂ (· + ·) ((matmul_at _ _ p q).trans ?_) ((matmul_at _ _ p q).trans ?_)
  · simp only [shapeCast_self]; rfl
  · simp only [shapeCast_self]; rfl

end Cert.Sage.Block1

end
-- ==== Proof.SageArray1.lean ====
/-
  The second kernel's output array, from the contents its region is entered with.

  The grid has 25 points; point `t` loads rows `2000·t … 2000·t + 1999` of the mean array and of the feature array, the
  whole of both weight matrices and of the bias row, and writes back rows `2000·t … 2000·t + 1999` of the output. Row `p`
  of point `t`'s block is row `2000·t + p` of the arrays, so what the point writes back is that block of ONE function of
  the entry contents: the dense step of the mean array, the feature array, the weights and the bias row. The 25 blocks
  tile the 50000 rows (row `r` lies in block `r / 2000`), so the output array ends holding that function.
-/
import proofs.«141523_j55499567399320_1_alg».proof.Proof.Gen.KernelIdeal.Frame
import proofs.«141523_j55499567399320_1_alg».proof.Proof.SageBlock1

set_option maxRecDepth 16384

noncomputable section

namespace Cert.Sage.Array1

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row-blocked inputs and the output sit at block `t` of the rows, the weights
    and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The dense step of the arrays the region is entered with. -/
def target (c : Dev nD) : S50000x128.Idx → EReal :=
  dense 50000 256 128 (V c main_v43 : S50000x256.Idx → Elt Ideal .f32) (V c main_v24 : S50000x256.Idx → Elt Ideal .f32)
    (V c main_arg5 : S256x128.Idx → Elt Ideal .f32) (V c main_arg7 : S256x128.Idx → Elt Ideal .f32)
    (fun q => (V c main_v44 : S1x128.Idx → Elt Ideal .f32) (ix2 (0 : Fin 1) q))

/-- Row `p` of point `t`'s block of the mean array is the array's row `2000·t + p`. -/
theorem mean_rows (c : Dev nD) (t : Fin cfg1.N) (p : Fin 2000) (k : Fin 256) (r : Fin 50000) (hr : r.val = t.val * 2000 + p.val) :
    iblk1 V c 0 t (ix2 p k) = (V c main_v43 : S50000x256.Idx → Elt Ideal .f32) (ix2 r k) := by
  obtain ⟨e00, e01, -⟩ := idx_facts t
  show (V c main_v43 : S50000x256.Idx → Elt Ideal .f32) (((cfg1.win 0).blk t).view.emb (ix2 p k)) = _
  refine congrArg (V c main_v43 : S50000x256.Idx → Elt Ideal .f32) (funext fun a => Fin.ext ?_)
  match a with
  | ⟨0, _⟩ => show win1_0.index t (0 : Fin 2) * 2000 + 1 * p.val = r.val; rw [e00, hr]; omega
  | ⟨1, _⟩ => show win1_0.index t (1 : Fin 2) * 256 + 1 * k.val = k.val; rw [e01]; omega

/-- The same for the feature array. -/
theorem feat_rows (c : Dev nD) (t : Fin cfg1.N) (p : Fin 2000) (k : Fin 256) (r : Fin 50000) (hr : r.val = t.val * 2000 + p.val) :
    iblk1 V c 1 t (ix2 p k) = (V c main_v24 : S50000x256.Idx → Elt Ideal .f32) (ix2 r k) := by
  obtain ⟨-, -, e10, e11, -⟩ := idx_facts t
  show (V c main_v24 : S50000x256.Idx → Elt Ideal .f32) (((cfg1.win 1).blk t).view.emb (ix2 p k)) = _
  refine congrArg (V c main_v24 : S50000x256.Idx → Elt Ideal .f32) (funext fun a => Fin.ext ?_)
  match a with
  | ⟨0, _⟩ => show win1_1.index t (0 : Fin 2) * 2000 + 1 * p.val = r.val; rw [e10, hr]; omega
  | ⟨1, _⟩ => show win1_1.index t (1 : Fin 2) * 256 + 1 * k.val = k.val; rw [e11]; omega

/-- Every point loads the whole of the left weights. -/
theorem wl_whole (c : Dev nD) (t : Fin cfg1.N) (k : Fin 256) (q : Fin 128) :
    iblk1 V c 2 t (ix2 k q) = (V c main_arg5 : S256x128.Idx → Elt Ideal .f32) (ix2 k q) := by
  obtain ⟨-, -, -, -, e20, e21, -⟩ := idx_facts t
  show (V c main_arg5 : S256x128.Idx → Elt Ideal .f32) (((cfg1.win 2).blk t).view.emb (ix2 k q)) = _
  refine congrArg (V c main_arg5 : S256x128.Idx → Elt Ideal .f32) (funext fun a => Fin.ext ?_)
  match a with
  | ⟨0, _⟩ => show win1_2.index t (0 : Fin 2) * 256 + 1 * k.val = k.val; rw [e20]; omega
  | ⟨1, _⟩ => show win1_2.index t (1 : Fin 2) * 128 + 1 * q.val = q.val; rw [e21]; omega

/-- And the whole of the right weights. -/
theorem wr_whole (c : Dev nD) (t : Fin cfg1.N) (k : Fin 256) (q : Fin 128) :
    iblk1 V c 3 t (ix2 k q) = (V c main_arg7 : S256x128.Idx → Elt Ideal .f32) (ix2 k q) := by
  obtain ⟨-, -, -, -, -, -, e30, e31, -⟩ := idx_facts t
  show (V c main_arg7 : S256x128.Idx → Elt Ideal .f32) (((cfg1.win 3).blk t).view.emb (ix2 k q)) = _
  refine congrArg (V c main_arg7 : S256x128.Idx → Elt Ideal .f32) (funext fun a => Fin.ext ?_)
  match a with
  | ⟨0, _⟩ => show win1_3.index t (0 : Fin 2) * 256 + 1 * k.val = k.val; rw [e30]; omega
  | ⟨1, _⟩ => show win1_3.index t (1 : Fin 2) * 128 + 1 * q.val = q.val; rw [e31]; omega

/-- And the whole bias row. -/
theorem bias_whole (c : Dev nD) (t : Fin cfg1.N) (q : Fin 128) :
    iblk1 V c 4 t (ix2 (0 : Fin 1) q) = (V c main_v44 : S1x128.Idx → Elt Ideal .f32) (ix2 (0 : Fin 1) q) := by
  obtain ⟨-, -, -, -, -, -, -, -, e40, e41, -⟩ := idx_facts t
  show (V c main_v44 : S1x128.Idx → Elt Ideal .f32) (((cfg1.win 4).blk t).view.emb (ix2 (0 : Fin 1) q)) = _
  refine congrArg (V c main_v44 : S1x128.Idx → Elt Ideal .f32) (funext fun a => Fin.ext ?_)
  match a with
  | ⟨0, _⟩ => show win1_4.index t (0 : Fin 2) * 1 + 1 * 0 = 0; rw [e40]
  | ⟨1, _⟩ => show win1_4.index t (1 : Fin 2) * 128 + 1 * q.val = q.val; rw [e41]; omega

/-- What point `t` writes back is block `t` of `target`. -/
theorem flushed_eq (c : Dev nD) (t : Fin cfg1.N) :
    (dat1 V c).flushed 5 t = ((cfg1.win 5).blk t).view.read (Elt Ideal) (target V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨-, -, -, -, -, -, -, -, -, -, e50, e51⟩ := idx_facts t
  have hN : cfg1.N = 25 := N_1
  have ht := t.isLt
  funext j
  obtain ⟨p, q, rfl⟩ : ∃ (p : Fin 2000) (q : Fin 128), j = ix2 p q := ⟨j 0, j 1, eq_ix2 j⟩
  refine (Block1.pay_at _ _ _ _ _ p q).trans ?_
  have hp := p.isLt
  have hemb : ((cfg1.win 5).blk t).view.emb (ix2 p q) = ix2 (⟨t.val * 2000 + p.val, by omega⟩ : Fin 50000) q := by
    refine funext fun a => Fin.ext ?_
    match a with
    | ⟨0, _⟩ => show win1_5.index t (0 : Fin 2) * 2000 + 1 * p.val = t.val * 2000 + p.val; rw [e50]; omega
    | ⟨1, _⟩ => show win1_5.index t (1 : Fin 2) * 128 + 1 * q.val = q.val; rw [e51]; omega
  show _ = target V c (((cfg1.win 5).blk t).view.emb (ix2 p q))
  rw [hemb]
  unfold target dense
  exact denseAt_block 50000 2000 256 128 _ _ _ _ _ _ _ _ _ _ _ p q q
    (fun k => mean_rows V c t p k _ rfl) (fun k => feat_rows V c t p k _ rfl)
    (fun k => wl_whole V c t k q) (fun k => wr_whole V c t k q) (bias_whole V c t q)

/-- An index of the output is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- The output array after the region: `target`, the 25 blocks tiling the rows. -/
theorem final (c : Dev nD) : (dat1 V c).arrAt 5 cfg1.N = target V c :=
  (dat1 V c).arrAt_eq_of_cover 5 (target V c) (fun t _ => flushed_eq V c t) fun i => by
    have hN : cfg1.N = 25 := N_1
    have hi0 : (i 0).val < 50000 := (i 0).isLt
    have hi1 : (i 1).val < 128 := (i 1).isLt
    refine ⟨⟨(i 0).val / 2000, by omega⟩, flush1_5 _, ?_⟩
    rw [mem_blk]
    obtain ⟨-, -, -, -, -, -, -, -, -, -, e50, e51⟩ := idx_facts ⟨(i 0).val / 2000, by omega⟩
    intro a
    match a with
    | ⟨0, _⟩ =>
      show win1_5.index ⟨(i 0).val / 2000, _⟩ (0 : Fin 2) * 2000 ≤ (i 0).val ∧ (i 0).val < win1_5.index ⟨(i 0).val / 2000, _⟩ (0 : Fin 2) * 2000 + 2000
      rw [e50]; show (i 0).val / 2000 * 2000 ≤ (i 0).val ∧ (i 0).val < (i 0).val / 2000 * 2000 + 2000; omega
    | ⟨1, _⟩ =>
      show win1_5.index ⟨(i 0).val / 2000, _⟩ (1 : Fin 2) * 128 ≤ (i 1).val ∧ (i 1).val < win1_5.index ⟨(i 0).val / 2000, _⟩ (1 : Fin 2) * 128 + 128
      rw [e51]; omega

end Cert.Sage.Array1

end
-- ==== Proof.SageRef.lean ====
/-
  The reference program, read as two dense GraphSAGE steps.

  The reference first forms the mean of the neighbours' features (a gather of the source rows, a scatter-add onto the
  destination rows, a division by the clamped in-degree), multiplies it by the left weights, adds the bias, adds the
  features times the right weights, and rectifies; then does the same once more on the hidden features, without the
  rectifier. The aggregation is never opened here: it is carried as one function of the array it averages
  (`mean1` of the input features, `mean2` of the hidden features) and of the edge list. What is read entry by entry is
  only the dense part: each dot product as a sum over the shared axis, the bias broadcast along the rows, the two
  additions and the maximum with zero. The reference adds the bias BEFORE the second product; `Cert.Sage.denseAt` adds it
  last; the two agree by `Cert.Sage.add_bias_last`.
-/
import proofs.«141523_j55499567399320_1_alg».proof.Proof.Gen.ReferenceIdeal.Read
import proofs.«141523_j55499567399320_1_alg».proof.Proof.SageSpec

noncomputable section

namespace Cert.Sage.Ref

open Cert.ReferenceIdeal Cert.ReferenceIdeal.Gen Cert.ReferenceIdeal.Read Idealize.ShloMosaic Idealize.ShloMosaic.TcCoe
open Idealize.ShloMosaic.ValueIdx Cert.Sage

/-- The neighbourhood mean of the input features: the reference's first aggregation, as one function of the features
    and the edge list. -/
abbrev mean1 (x0 : (⟨S50000x128, .f32⟩ : BufTy).Contents (Elt Ideal)) (x1 : (⟨S2x640000, .i32⟩ : BufTy).Contents (Elt Ideal)) :
    (⟨S50000x128, .f32⟩ : BufTy).Contents (Elt Ideal) :=
  val_main_v22 (F := Ideal) x0 x1

/-- The neighbourhood mean of an array `h` of hidden features: gather the source rows of `h`, add them onto the
    destination rows, divide by the clamped in-degree. The index arrays and the in-degree depend on the edge list only. -/
def mean2 (h : FVec Ideal S50000x256 .f32) (x1 : (⟨S2x640000, .i32⟩ : BufTy).Contents (Elt Ideal)) :
    FVec Ideal S50000x256 .f32 :=
  Host.divf (F := Ideal) (φ := .f32)
    (Host.scatterAdd (F := Ideal) (φ := .f32) scatter_S50000x256_S640000x1_S640000x256_1_0_0_1 (val_main_v37 (F := Ideal)) (val_main_v38 (F := Ideal) x1)
      (Host.gather (α := Ideal .f32) gather_S50000x256_S640000x1_S640000x256_1_0_n_n_0_1_1256 h (val_main_v35 (F := Ideal) x1)))
    (val_main_v47 (F := Ideal) x1)

/-- A bias vector as a function of the output column. -/
abbrev bias256 (x3 : (⟨S256, .f32⟩ : BufTy).Contents (Elt Ideal)) : Fin 256 → EReal := fun q => x3 (ix1 q)
abbrev bias128 (x6 : (⟨S128, .f32⟩ : BufTy).Contents (Elt Ideal)) : Fin 128 → EReal := fun q => x6 (ix1 q)

/-- The hidden features: the rectified dense step of the mean of the input features and the input features. -/
def hidden (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) : (⟨S50000x256, .f32⟩ : BufTy).Contents (Elt Ideal) :=
  denseRelu 50000 128 256 (mean1 x0 x1) x0 x2 x4 (bias256 x3)

/-- The result: the dense step of the mean of the hidden features and the hidden features. -/
def result (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal)) :
    (⟨S50000x128, .f32⟩ : BufTy).Contents (Elt Ideal) :=
  dense 50000 256 128 (mean2 (hidden x0 x1 x2 x3 x4) x1) (hidden x0 x1 x2 x3 x4) x5 x7 (bias128 x6)

/-! ## The index maps of the generated read lemmas, as coordinates -/

theorem lidx23 (i : S50000x256.Idx) (k : Fin 128) : lidx_main_v23 i k = ix2 (i 0) k :=
  funext fun a => Fin.ext (by match a with | ⟨0, _⟩ => rfl | ⟨1, _⟩ => rfl)
theorem ridx23 (i : S50000x256.Idx) (k : Fin 128) : ridx_main_v23 i k = ix2 k (i 1) :=
  funext fun a => Fin.ext (by match a with | ⟨0, _⟩ => rfl | ⟨1, _⟩ => rfl)
theorem lidx27 (i : S50000x256.Idx) (k : Fin 128) : lidx_main_v27 i k = ix2 (i 0) k :=
  funext fun a => Fin.ext (by match a with | ⟨0, _⟩ => rfl | ⟨1, _⟩ => rfl)
theorem ridx27 (i : S50000x256.Idx) (k : Fin 128) : ridx_main_v27 i k = ix2 k (i 1) :=
  funext fun a => Fin.ext (by match a with | ⟨0, _⟩ => rfl | ⟨1, _⟩ => rfl)
theorem bidx25 (i : S50000x256.Idx) : idx_main_v24 (idx_main_v25 i) = ix1 (i 1) :=
  funext fun a => Fin.ext (by match a with | ⟨0, _⟩ => rfl)
theorem lidx49 (i : S50000x128.Idx) (k : Fin 256) : lidx_main_v49 i k = ix2 (i 0) k :=
  funext fun a => Fin.ext (by match a with | ⟨0, _⟩ => rfl | ⟨1, _⟩ => rfl)
theorem ridx49 (i : S50000x128.Idx) (k : Fin 256) : ridx_main_v49 i k = ix2 k (i 1) :=
  funext fun a => Fin.ext (by match a with | ⟨0, _⟩ => rfl | ⟨1, _⟩ => rfl)
theorem lidx53 (i : S50000x128.Idx) (k : Fin 256) : lidx_main_v53 i k = ix2 (i 0) k :=
  funext fun a => Fin.ext (by match a with | ⟨0, _⟩ => rfl | ⟨1, _⟩ => rfl)
theorem ridx53 (i : S50000x128.Idx) (k : Fin 256) : ridx_main_v53 i k = ix2 k (i 1) :=
  funext fun a => Fin.ext (by match a with | ⟨0, _⟩ => rfl | ⟨1, _⟩ => rfl)
theorem bidx51 (i : S50000x128.Idx) : idx_main_v50 (idx_main_v51 i) = ix1 (i 1) :=
  funext fun a => Fin.ext (by match a with | ⟨0, _⟩ => rfl)

/-! ## The two layers -/

/-- The reference's hidden features are the rectified dense step: the bias moves past the second product. -/
theorem hidden_eq (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) :
    val_main_v29 (F := Ideal) x0 x1 x2 x3 x4 = hidden x0 x1 x2 x3 x4 := by
  funext i
  rw [val_main_v29_apply, val_main_v28_apply, val_main_v26_apply, val_main_v23_apply, val_main_v25_apply, val_main_v24_apply,
    val_main_v27_apply, val_main_call0_v0_apply, val_main_call0_cst_apply]
  simp only [lidx23, ridx23, lidx27, ridx27, bidx25]
  show max ((_ + _) + _) (Ideal.ofBits .f32 0x00000000#32) = max (denseAt 50000 128 256 _ _ _ _ _ (i 0) (i 1)) 0
  rw [Ideal.ofBits_zero_f32, add_bias_last]
  rfl

/-- The reference's second mean is the aggregation of its hidden features. -/
theorem mean2_eq (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) :
    val_main_v48 (F := Ideal) x0 x1 x2 x3 x4 = mean2 (val_main_v29 (F := Ideal) x0 x1 x2 x3 x4) x1 := by
  unfold val_main_v48 val_main_v39 val_main_v36 mean2
  rfl

/-- The reference's result is the dense step of the mean of its hidden features and its hidden features. -/
theorem result_eq (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal)) :
    val_main_v54 (F := Ideal) x0 x1 x2 x3 x4 x5 x6 x7 = result x0 x1 x2 x3 x4 x5 x6 x7 := by
  funext i
  rw [val_main_v54_apply, val_main_v52_apply, val_main_v49_apply, val_main_v51_apply, val_main_v50_apply, val_main_v53_apply]
  simp only [lidx49, ridx49, lidx53, ridx53, bidx51]
  rw [mean2_eq, hidden_eq]
  show (_ + _) + _ = denseAt 50000 256 128 _ _ _ _ _ (i 0) (i 1)
  rw [add_bias_last]
  rfl

end Cert.Sage.Ref

end
-- ==== Proof.SageHost.lean ====
/-
  The kernel program's result as a function of its arguments.

  The first stretch of host operations leaves, for the first kernel, the neighbourhood mean of the input features (the
  same gather, scatter-add and division by the clamped in-degree the reference applies, carried here as the one
  function `Cert.Sage.Ref.mean1` and never opened), the features and weights as launched, and the first bias as a
  1 × 256 row. The first kernel's output array is then the rectified dense step of these: the hidden features
  `Cert.Sage.Ref.hidden`. The second stretch applies the same aggregation to that array (`Cert.Sage.Ref.mean2`) and leaves the
  second weights and the second bias row; the second kernel's output is the dense step of the mean of the hidden
  features and the hidden features: `Cert.Sage.Ref.result`. A bias row read at `(0, q)` is the bias vector at `q`.
-/
import proofs.«141523_j55499567399320_1_alg».proof.Proof.SageArray0
import proofs.«141523_j55499567399320_1_alg».proof.Proof.SageArray1
import proofs.«141523_j55499567399320_1_alg».proof.Proof.SageRef

set_option maxRecDepth 16384

noncomputable section

namespace Cert.Sage.Host

open Cert.KernelIdeal Cert.KernelIdeal.Gen Idealize.ShloMosaic Idealize.ShloMosaic.TcCoe Idealize.ShloMosaic.ValueIdx
open Idealize.SL.Sem Idealize.ShloMosaic.StableHlo Cert.Sage

variable (m : (ℓ : Loc nD τ sig) → Buf (Elt Ideal) ℓ) (ρ : Dev nD → PrngReg)

/-! ## What the first kernel is entered with -/

/-- The mean array is the aggregation of the launched features along the launched edges. -/
theorem mean_first (c : Dev nD) :
    V1 m ρ c main_v22 = Ref.mean1 (m ((c : Thread nD τ).loc main_arg0)) (m ((c : Thread nD τ).loc main_arg1)) := by
  show StableHlo.after hostOps0 (W0 m ρ c) (Proc.devRef .tc main_v22) = _
  after_results_simp
  rfl

theorem feats_first (c : Dev nD) : V1 m ρ c main_arg0 = m ((c : Thread nD τ).loc main_arg0) := by
  show StableHlo.after hostOps0 (W0 m ρ c) (Proc.devRef .tc main_arg0) = _
  after_results_simp

theorem wl_first (c : Dev nD) : V1 m ρ c main_arg2 = m ((c : Thread nD τ).loc main_arg2) := by
  show StableHlo.after hostOps0 (W0 m ρ c) (Proc.devRef .tc main_arg2) = _
  after_results_simp

theorem wr_first (c : Dev nD) : V1 m ρ c main_arg4 = m ((c : Thread nD τ).loc main_arg4) := by
  show StableHlo.after hostOps0 (W0 m ρ c) (Proc.devRef .tc main_arg4) = _
  after_results_simp

/-- The first bias as a row. -/
theorem bias_first (c : Dev nD) :
    V1 m ρ c main_v23 = shapeCast S1x256 (m ((c : Thread nD τ).loc main_arg3)) shapeCasts_S256_S1x256 := by
  show StableHlo.after hostOps0 (W0 m ρ c) (Proc.devRef .tc main_v23) = _
  after_results_simp
  rfl

/-- The source endpoints of the edges, as the first stretch leaves them. -/
theorem src_idx (c : Dev nD) : W1 m ρ c (Proc.devRef .tc main_v1)
    = shapeCast S640000 (extractStridedSlice S1x640000 ![0, 0] (m ((c : Thread nD τ).loc main_arg1)) slices_S2x640000_S1x640000_0_0) shapeCasts_S1x640000_S640000 := by
  show StableHlo.after hostOps0 (W0 m ρ c) (Proc.devRef .tc main_v1) = _
  after_results_simp
  rfl

/-- The destination endpoints. -/
theorem dst_idx (c : Dev nD) : W1 m ρ c (Proc.devRef .tc main_v3)
    = shapeCast S640000 (extractStridedSlice S1x640000 ![1, 0] (m ((c : Thread nD τ).loc main_arg1)) slices_S2x640000_S1x640000_1_0) shapeCasts_S1x640000_S640000 := by
  show StableHlo.after hostOps0 (W0 m ρ c) (Proc.devRef .tc main_v3) = _
  after_results_simp
  rfl

/-- A bias vector reshaped to a row, read at `(0, q)`. -/
theorem bias_row256 (x3 : S256.Idx → EReal) : (fun q : Fin 256 => shapeCast S1x256 x3 shapeCasts_S256_S1x256 (ix2 (0 : Fin 1) q)) = Ref.bias256 x3 :=
  funext fun q => shapeCast_a_1a_apply x3 shapeCasts_S256_S1x256 0 q

theorem bias_row128 (x6 : S128.Idx → EReal) : (fun q : Fin 128 => shapeCast S1x128 x6 shapeCasts_S128_S1x128 (ix2 (0 : Fin 1) q)) = Ref.bias128 x6 :=
  funext fun q => shapeCast_a_1a_apply x6 shapeCasts_S128_S1x128 0 q

/-! ## The hidden features -/

/-- The first kernel's output array is the reference's hidden features of the launched arguments. -/
theorem hidden_eq (c : Dev nD) :
    V2 m ρ c main_v24 = Ref.hidden (m ((c : Thread nD τ).loc main_arg0)) (m ((c : Thread nD τ).loc main_arg1))
      (m ((c : Thread nD τ).loc main_arg2)) (m ((c : Thread nD τ).loc main_arg3)) (m ((c : Thread nD τ).loc main_arg4)) := by
  refine (W2_arr m ρ c 5).trans ((Array0.final (V1 m ρ) c).trans ?_)
  unfold Array0.target Ref.hidden
  rw [mean_first, feats_first, wl_first, wr_first, bias_first, bias_row256]

/-! ## What the second kernel is entered with -/

/-- The second mean array is the aggregation of the hidden features along the launched edges. -/
theorem mean_second (c : Dev nD) :
    V3 m ρ c main_v43 = Ref.mean2 (V2 m ρ c main_v24) (m ((c : Thread nD τ).loc main_arg1)) := by
  show StableHlo.after hostOps1 (W2 m ρ c) (Proc.devRef .tc main_v43) = _
  after_results_simp
  rw [W2_of_ne m ρ c main_v1 (by decide), W2_of_ne m ρ c main_v3 (by decide), src_idx, dst_idx]
  rfl

theorem feats_second (c : Dev nD) : V3 m ρ c main_v24 = V2 m ρ c main_v24 := by
  show StableHlo.after hostOps1 (W2 m ρ c) (Proc.devRef .tc main_v24) = _
  after_results_simp

theorem wl_second (c : Dev nD) : V3 m ρ c main_arg5 = m ((c : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

theorem wr_second (c : Dev nD) : V3 m ρ c main_arg7 = m ((c : Thread nD τ).loc main_arg7) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp

/-- The second bias as a row. -/
theorem bias_second (c : Dev nD) :
    V3 m ρ c main_v44 = shapeCast S1x128 (m ((c : Thread nD τ).loc main_arg6)) shapeCasts_S128_S1x128 := by
  show StableHlo.after hostOps1 (W2 m ρ c) (Proc.devRef .tc main_v44) = _
  after_results_simp
  rw [W2_of_ne m ρ c main_arg6 (by decide)]
  refine congrArg (fun x => shapeCast S1x128 x shapeCasts_S128_S1x128) ?_
  show StableHlo.after hostOps0 (W0 m ρ c) (Proc.devRef .tc main_arg6) = _
  after_results_simp

/-! ## The result -/

/-- The second kernel's output array — the program's result — is the reference's result function of the launched
    arguments. -/
theorem result_eq (c : Dev nD) :
    W4 m ρ c (Proc.devRef .tc main_v45) = Ref.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (W4_arr m ρ c 5).trans ((Array1.final (V3 m ρ) c).trans ?_)
  unfold Array1.target Ref.result
  rw [mean_second, feats_second, wl_second, wr_second, bias_second, bias_row128, hidden_eq]

end Cert.Sage.Host

end
-- ==== Proof.lean ====
/-
  Two GraphSAGE layers on a graph of 50000 nodes and 640000 edges: a kernel program against a plain reference.

  Both programs compute, for features `x`, edges `(src, dst)`, and per layer weights `wl`, `wr` and bias `b`,

      h   = max (mean(x) · w1l + x · w1r + b1) 0,        out = mean(h) · w2l + h · w2r + b2,

  where `mean(a)` gathers the source rows of `a`, adds them onto the destination rows and divides by the in-degree
  clamped below at one. The kernel program forms each mean with host operations and runs the dense part of each layer as
  a kernel over 25 blocks of 2000 rows, adding the two products first and the bias last; the reference does
  everything with host operations and adds the bias before the second product.

  On the extended reals the two agree entry by entry: the aggregation is the same function on both sides and is never
  opened; each product is the same sum over the shared axis, blocked or not; rounding the operands to bf16 is the
  identity; and the three terms are added in two orders, which commutativity and associativity of addition
  reconcile (also at the infinities, so the precondition is not used). Nothing is rewritten by the idealization, so
  `preserves` is trivial. The frames are the generated ones; the reference's frame is its generated run with the result
  dropped.
-/
import proofs.«141523_j55499567399320_1_alg».proof.Defs
import proofs.«141523_j55499567399320_1_alg».proof.Proof.Gen.Kernel
import proofs.«141523_j55499567399320_1_alg».proof.Proof.Gen.Kernel.Frame
import proofs.«141523_j55499567399320_1_alg».proof.Proof.Gen.KernelIdeal
import proofs.«141523_j55499567399320_1_alg».proof.Proof.Gen.KernelIdeal.Frame
import proofs.«141523_j55499567399320_1_alg».proof.Proof.Gen.ReferenceIdeal
import proofs.«141523_j55499567399320_1_alg».proof.Proof.Gen.ReferenceIdeal.Run
import proofs.«141523_j55499567399320_1_alg».proof.Proof.Gen.ReferenceIdeal.Read
import proofs.«141523_j55499567399320_1_alg».proof.Proof.Gen.Pre_finite_inputs
import proofs.«141523_j55499567399320_1_alg».proof.Proof.SageRun
import proofs.«141523_j55499567399320_1_alg».proof.Proof.SageHost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's run at the extended reals: the result array is the two-layer function of the launched
    arguments, and the arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v45)
          = Cert.Sage.Ref.result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c => ⟨(h c).1.trans (Cert.Sage.Host.result_eq m ρ c), (h c).2⟩)
    (Cert.Sage.Run.run (F := Ideal) m ρ)

/-- From memories agreeing on the arguments both programs end at the same two-layer function of them. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  rw [(h c).1, Cert.ReferenceIdeal.Read.val_main_v54_eq, Cert.Sage.Ref.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
